-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S16x8x512x3 : Shape := ⟨4, ![16, 8, 512, 3]⟩
abbrev S16 : Shape := ⟨1, ![16]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel
  bcast_S_S16x8x512x3 : S_.BroadcastsInDim S16x8x512x3 (![] : Fin 0 → Fin S16x8x512x3.rank)
  reducesTo_S16x8x512x3_S_d0_1_2_3 : S16x8x512x3.ReducesTo [0, 1, 2, 3] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x8x512x3 1) : IVec S_ 1 :=
  let main_c_5 : IVec S_ 1 := constantI S_ 1 1#1
  let main_v17 : IVec S_ 1 := (fun x v => Host.reduce IntOp.andi x v reducesTo_S16x8x512x3_S_d0_1_2_3 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S16x4096x3 .f32) (main_arg1 : FVec F S16x4096x3 .f32) (main_arg2 : FVec F S16x8x512x3 .f32) (main_arg3 : FVec F S16x8x512x3 .f32) (main_arg4 : FVec F S16 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  let main_v9 : FVec F S16x8x512x3 .f32 := Host.absf main_arg2
  let main_cst_2 : FVec F S_ .f32 := constant S_ .f32 0x7F800000#32
  let main_v10 : FVec F S16x8x512x3 .f32 := broadcastInDim S16x8x512x3 ![] bcast_S_S16x8x512x3 main_cst_2
  let main_v11 : IVec S16x8x512x3 1 := cmpf .olt main_v9 main_v10
  let main_c_3 : IVec S_ 1 := constantI S_ 1 1#1
  let main_v12 : IVec S_ 1 := (fun x v => Host.reduce IntOp.andi x v reducesTo_S16x8x512x3_S_d0_1_2_3 h_S_) main_v11 main_c_3
  let main_v13 : IVec S_ 1 := andi main_v8 main_v12
  let main_v14 : FVec F S16x8x512x3 .f32 := Host.absf main_arg3
  let main_cst_4 : FVec F S_ .f32 := constant S_ .f32 0x7F800000#32
  let main_v15 : FVec F S16x8x512x3 .f32 := broadcastInDim S16x8x512x3 ![] bcast_S_S16x8x512x3 main_cst_4
  let main_v16 : IVec S16x8x512x3 1 := cmpf .olt main_v14 main_v15
  fn_part1 (F := F) main_arg4 main_v13 main_v16
-- ==== Kernel.lean ====
abbrev S16x4096x3 : Shape := ⟨3, ![16, 4096, 3]⟩
abbrev S16x8x512x3 : Shape := ⟨4, ![16, 8, 512, 3]⟩
abbrev S16 : Shape := ⟨1, ![16]⟩
abbrev S16x3x4096 : Shape := ⟨3, ![16, 3, 4096]⟩
abbrev S16x4096 : Shape := ⟨2, ![16, 4096]⟩
abbrev S16x3x512 : Shape := ⟨3, ![16, 3, 512]⟩
abbrev S16x3x256 : Shape := ⟨3, ![16, 3, 256]⟩
abbrev S16x512 : Shape := ⟨2, ![16, 512]⟩
abbrev S16x1x512 : Shape := ⟨3, ![16, 1, 512]⟩
abbrev S16x1x256 : Shape := ⟨3, ![16, 1, 256]⟩
abbrev S16x256 : Shape := ⟨2, ![16, 256]⟩
abbrev S16x512x1 : Shape := ⟨3, ![16, 512, 1]⟩
abbrev S16x512x256 : Shape := ⟨3, ![16, 512, 256]⟩
abbrev S_ : Shape := ⟨0, ![]⟩

abbrev nBuf : Space → Nat
  | .hbm => 36
  | .vmem => 7
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x8x512x3, .f32⟩
  | .hbm, ⟨3, _⟩ => ⟨S16x8x512x3, .f32⟩
  | .hbm, ⟨4, _⟩ => ⟨S16, .f32⟩
  | .hbm, ⟨5, _⟩ => ⟨S16x3x4096, .f32⟩
  | .hbm, ⟨6, _⟩ => ⟨S16x3x4096, .f32⟩
  | .hbm, ⟨7, _⟩ => ⟨S16x4096, .f32⟩
  | .hbm, ⟨8, _⟩ => ⟨S_, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16x4096x3, .f32⟩
  | .hbm, ⟨19, _⟩ => ⟨S16x4096x3, .f32⟩
  | .hbm, ⟨20, _⟩ => ⟨S16x4096x3, .f32⟩
  | .hbm, ⟨21, _⟩ => ⟨S16x4096x3, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S16x3x512, .f32⟩
  | .local _ .vmem, ⟨1, _⟩ => ⟨S16x3x512, .f32⟩
  | .local _ .vmem, ⟨2, _⟩ => ⟨S16x3x256, .f32⟩
  | .local _ .vmem, ⟨3, _⟩ => ⟨S16x3x256, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v60 : BitVec 1 := Scalar.cmpi .eq arg1 c15_i32
  let v61 : BitVec 32 := Scalar.extui v60
  let c0_i32_11 : BitVec 32 := 0#32
  let v62 : BitVec 1 := Scalar.cmpi .ne v61 c0_i32_11
  v62

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16x4096x3_S16x3x4096_0_2_1 : S16x4096x3.Transposes [0, 2, 1] S16x3x4096
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x3x512_S16x3x512_0_0_0 : ∀ a, (![0, 0, 0] : Fin 3 → Nat) a + S16x3x512.size a ≤ S16x3x512.size a
  h_S16x3x512 : 0 < S16x3x512.numel
  shapeCasts_S16x3x512_S16x3x512 : S16x3x512.ShapeCasts S16x3x512
  inb_S16x3x256_S16x3x256_0_0_0 : ∀ a, (![0, 0, 0] : Fin 3 → Nat) a + S16x3x256.size a ≤ S16x3x256.size a
  h_S16x3x256 : 0 < S16x3x256.numel
  shapeCasts_S16x3x256_S16x3x256 : S16x3x256.ShapeCasts S16x3x256
  slices_S16x3x512_o0_0_0_S16x1x512 : S16x3x512.Slices ![0, 0, 0] S16x1x512
  shapeCasts_S16x1x512_S16x512 : S16x1x512.ShapeCasts S16x512
  slices_S16x3x512_o0_1_0_S16x1x512 : S16x3x512.Slices ![0, 1, 0] S16x1x512
  slices_S16x3x512_o0_2_0_S16x1x512 : S16x3x512.Slices ![0, 2, 0] S16x1x512
  slices_S16x3x256_o0_0_0_S16x1x256 : S16x3x256.Slices ![0, 0, 0] S16x1x256
  shapeCasts_S16x1x256_S16x256 : S16x1x256.ShapeCasts S16x256
  slices_S16x3x256_o0_1_0_S16x1x256 : S16x3x256.Slices ![0, 1, 0] S16x1x256
  slices_S16x3x256_o0_2_0_S16x1x256 : S16x3x256.Slices ![0, 2, 0] S16x1x256
  shapeCasts_S16x512_S16x512x1 : S16x512.ShapeCasts S16x512x1
  shapeCasts_S16x256_S16x1x256 : S16x256.ShapeCasts S16x1x256
  broadcasts_S16x512x1_S16x512x256 : S16x512x1.Broadcasts S16x512x256
  broadcasts_S16x1x256_S16x512x256 : S16x1x256.Broadcasts S16x512x256
  reduces_S16x512x256_S16x512 : S16x512x256.Reduces [2] S16x512
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  shapeCasts_S16x8x512x3_S16x4096x3 : S16x8x512x3.ShapeCasts S16x4096x3
  reducesTo_S16x4096x3_S16_d1_2 : S16x4096x3.ReducesTo [1, 2] S16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x512.size a ≤ S16x3x4096.size a
  hwx0_0 : ∀ i : grid0.Coords, EltTy.bits .f32 = 32 ∨ (Rect.block (s := S16x3x4096) S16x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3x256.size a ≤ S16x3x4096.size a
  hwx0_1 : ∀ i : grid0.Coords, EltTy.bits .f32 = 32 ∨ (Rect.block (s := S16x3x4096) S16x3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)

variable [Facts₀]

abbrev win0_0 : Pipeline.Window sig grid0 :=
  Pipeline.Window.ofSpec (Memref.whole main_v0) S16x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S16x8x512x3 : Shape := ⟨4, ![16, 8, 512, 3]⟩
abbrev S16 : Shape := ⟨1, ![16]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x8x512x3, .f32⟩
  | .hbm, ⟨3, _⟩ => ⟨S16x8x512x3, .f32⟩
  | .hbm, ⟨4, _⟩ => ⟨S16, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x3, .f32⟩
  | .hbm, ⟨9, _⟩ => ⟨S_, .f32⟩
  | .hbm, ⟨10, _⟩ => ⟨S16x4096, .f32⟩
  | .hbm, ⟨11, _⟩ => ⟨S16x4096x4096, .f32⟩
  | .hbm, ⟨12, _⟩ => ⟨S16x4096x1, .f32⟩
  | .hbm, ⟨13, _⟩ => ⟨S16x1x4096, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096, .f32⟩
  | .hbm, ⟨23, _⟩ => ⟨S_, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16x4096x3, .f32⟩
  | .hbm, ⟨34, _⟩ => ⟨S16x4096x3, .f32⟩
  | .hbm, ⟨35, _⟩ => ⟨S16x4096x3, .f32⟩
  | .hbm, ⟨36, _⟩ => ⟨S16x4096x3, .f32⟩
  | .hbm, ⟨37, _⟩ => ⟨S_, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S16_d1 : S16x4096.ReducesTo [1] S16
  bcast_S_S16 : S_.BroadcastsInDim S16 (![] : Fin 0 → Fin S16.rank)
  reducesTo_S16_S_d0 : S16.ReducesTo [0] S_
  shapeCasts_S16x8x512x3_S16x4096x3 : S16x8x512x3.ShapeCasts S16x4096x3
  reducesTo_S16x4096x3_S16_d1_2 : S16x4096x3.ReducesTo [1, 2] S16
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.KPieces.lean ====
/-
  What one grid point leaves behind, as values. The kernel walks a grid of 8 row tiles by 16 column
  tiles. At every point it folds the minimum over the 256 columns of the current tile into a running
  minimum kept in a scratch block of shape [16, 512]:
    * at the first column tile the scratch is first set to +∞ and the tile's minimum folded into that;
    * at every later column tile the tile's minimum is folded into what the previous point left;
    * at the last column tile the scratch is, besides, copied into the output block.
  Each statement below says that the block a case leaves is `foldTile` of the two input blocks and of
  the running minimum the case starts from. They hold for any float instance.
-/
import proofs.«135807_j24790551233440_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One tile folded into a running minimum: from the block `x0` of 512 query points and the block `x1`
    of 256 candidate points, the entrywise minimum of `prev` and of the row minima of the tile's squared
    distances. -/
def foldTile (x0 : Vec F S16x3x512 .f32) (x1 : Vec F S16x3x256 .f32) (prev : Vec F S16x512 .f32) : Vec F S16x512 .f32 :=
  k0_pay1 (k0_pay11 x0 x1) (k0_pay12 x1) (k0_pay13 x0) prev

/-- The block of +∞ a row tile's running minimum starts from. -/
abbrev start : Vec F S16x512 .f32 := k0_pay2 (F := F)

/-- A later column tile (not the last): the scratch ends at the tile folded into what it held. -/
theorem scratch_B (c : Dev nD) (i : grid0.Coords) (a2 : Memref sig .tc .vmem S16x3x512 .f32) (h2 : a2.IsWhole)
    (a3 : Memref sig .tc .vmem S16x3x256 .f32) (h3 : a3.IsWhole) (a4 : Memref sig .tc .vmem S16x512 .f32) (h4 : a4.IsWhole)
    (a5 : Memref sig .tc .vmem S16x512 .f32) (h5 : a5.IsWhole) (hc0 : ¬cond0_0 i) (hc1 : ¬cond0_1 i)
    (x0 : Vec F S16x3x512 .f32) (x1 : Vec F S16x3x256 .f32) (xs0 : Vec F S16x512 .f32) :
    sout0_B_0 c i a2 h2 a3 h3 a4 h4 a5 h5 hc0 hc1 x0 x1 xs0 = foldTile x0 x1 xs0 := by
  unfold sout0_B_0 foldTile
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h4.read_unread, h5.read_unread,
    View.ld_unit_zero (S := S16x512) hz2, View.ld_unit_zero (S := S16x3x512) hz3, View.ld_unit_zero (S := S16x3x256) hz3]

/-- The last column tile: the scratch ends the same way, -/
theorem scratch_C (c : Dev nD) (i : grid0.Coords) (a2 : Memref sig .tc .vmem S16x3x512 .f32) (h2 : a2.IsWhole)
    (a3 : Memref sig .tc .vmem S16x3x256 .f32) (h3 : a3.IsWhole) (a4 : Memref sig .tc .vmem S16x512 .f32) (h4 : a4.IsWhole)
    (a5 : Memref sig .tc .vmem S16x512 .f32) (h5 : a5.IsWhole) (hc0 : ¬cond0_0 i) (hc1 : cond0_1 i)
    (x0 : Vec F S16x3x512 .f32) (x1 : Vec F S16x3x256 .f32) (xs0 : Vec F S16x512 .f32) :
    sout0_C_0 c i a2 h2 a3 h3 a4 h4 a5 h5 hc0 hc1 x0 x1 xs0 = foldTile x0 x1 xs0 := by
  unfold sout0_C_0 foldTile
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h4.read_unread, h5.read_unread,
    View.ld_unit_zero (S := S16x512) hz2, View.ld_unit_zero (S := S16x3x512) hz3, View.ld_unit_zero (S := S16x3x256) hz3]

/-- and the output block is a copy of it. -/
theorem output_C (c : Dev nD) (i : grid0.Coords) (a2 : Memref sig .tc .vmem S16x3x512 .f32) (h2 : a2.IsWhole)
    (a3 : Memref sig .tc .vmem S16x3x256 .f32) (h3 : a3.IsWhole) (a4 : Memref sig .tc .vmem S16x512 .f32) (h4 : a4.IsWhole)
    (a5 : Memref sig .tc .vmem S16x512 .f32) (h5 : a5.IsWhole) (hc0 : ¬cond0_0 i) (hc1 : cond0_1 i)
    (x0 : Vec F S16x3x512 .f32) (x1 : Vec F S16x3x256 .f32) (xs0 : Vec F S16x512 .f32) :
    out0_C_2 c i a2 h2 a3 h3 a4 h4 a5 h5 hc0 hc1 x0 x1 xs0 = foldTile x0 x1 xs0 := by
  unfold out0_C_2 foldTile
  rw [View.read_writes_eq_canon _ _ _ (cover0_C_2 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h4.read_unread, h5.read_unread,
    View.ld_unit_zero (S := S16x512) hz2, View.ld_unit_zero (S := S16x3x512) hz3, View.ld_unit_zero (S := S16x3x256) hz3]
  rw [View.readCov_unit_zero (S := S16x512) _ hz2]

/-- The first column tile: the scratch is set to +∞, read back, and the tile folded into that. -/
theorem scratch_A (c : Dev nD) (i : grid0.Coords) (a2 : Memref sig .tc .vmem S16x3x512 .f32) (h2 : a2.IsWhole)
    (a3 : Memref sig .tc .vmem S16x3x256 .f32) (h3 : a3.IsWhole) (a4 : Memref sig .tc .vmem S16x512 .f32) (h4 : a4.IsWhole)
    (a5 : Memref sig .tc .vmem S16x512 .f32) (h5 : a5.IsWhole) (hc0 : cond0_0 i) (hc1 : ¬cond0_1 i)
    (x0 : Vec F S16x3x512 .f32) (x1 : Vec F S16x3x256 .f32) :
    sout0_A_0 c i a2 h2 a3 h3 a4 h4 a5 h5 hc0 hc1 x0 x1 = foldTile x0 x1 start := by
  unfold sout0_A_0 foldTile
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S16x512) hz2, View.readCov_unit_zero (S := S16x512) _ hz2]
  simp only [View.readAt_eq_ld, h2.read_unread, h3.read_unread, h4.read_unread, h5.read_unread,
    View.ld_unit_zero (S := S16x512) hz2, View.ld_unit_zero (S := S16x3x512) hz3, View.ld_unit_zero (S := S16x3x256) hz3]

end Cert.KernelIdeal.Pieces

end
-- ==== Proof.Spec.lean ====
/-
  The mathematics both programs compute, as functions of the argument arrays.

  `A` and `O` are two stacks of 16 clouds of 4096 points in space, an array of shape [16, 4096, 3].
  For a query point n of cloud b of `A` and a candidate point q of cloud b of `O`,
      sqDist A O b n q = (|A b n|² + |O b q|²) − 2 · ⟨A b n, O b q⟩
  is their squared distance in expanded form, the squares and the inner product summed coordinate
  by coordinate in the order 0, 1, 2. `nearest A O` at (b, n) is the minimum over all 4096 candidates
  q of that, started from +∞: an array of shape [16, 4096].

  The kernel sees the clouds with the coordinate axis in the middle, [16, 3, 512] and [16, 3, 256]
  blocks of them; `tileDist` is the same squared distance read off such a pair of blocks.
-/
import Idealize.ShloMosaic.PureOps.Ideal
import Idealize.ShloMosaic.Lib.ValueIdx

noncomputable section

namespace Cert.Chamfer

open Idealize.ShloMosaic Idealize.ShloMosaic.ValueIdx

/-- The factor 2 of the expanded square, as both programs spell it. -/
abbrev two : EReal := Ideal.ofBits .f32 0x40000000#32
/-- +∞, the value every minimum starts from, as both programs spell it. -/
abbrev inf : EReal := Ideal.ofBits .f32 0x7F800000#32

/-- The squared length of point `n` of cloud `b`. -/
def normSq (X : (⟨3, ![16, 4096, 3]⟩ : Shape).Idx → EReal) (b : Fin 16) (n : Fin 4096) : EReal :=
  X (ix3 b n (0 : Fin 3)) * X (ix3 b n (0 : Fin 3)) + X (ix3 b n (1 : Fin 3)) * X (ix3 b n (1 : Fin 3))
    + X (ix3 b n (2 : Fin 3)) * X (ix3 b n (2 : Fin 3))

/-- The inner product of point `n` of cloud `b` of `A` with point `q` of cloud `b` of `O`. -/
def inner3 (A O : (⟨3, ![16, 4096, 3]⟩ : Shape).Idx → EReal) (b : Fin 16) (n q : Fin 4096) : EReal :=
  A (ix3 b n (0 : Fin 3)) * O (ix3 b q (0 : Fin 3)) + A (ix3 b n (1 : Fin 3)) * O (ix3 b q (1 : Fin 3))
    + A (ix3 b n (2 : Fin 3)) * O (ix3 b q (2 : Fin 3))

/-- Their squared distance, expanded. -/
def sqDist (A O : (⟨3, ![16, 4096, 3]⟩ : Shape).Idx → EReal) (b : Fin 16) (n q : Fin 4096) : EReal :=
  normSq A b n + normSq O b q - two * inner3 A O b n q

/-- The squared distance from each point of `A` to its nearest point of `O` in the same cloud. -/
def nearest (A O : (⟨3, ![16, 4096, 3]⟩ : Shape).Idx → EReal) : (⟨2, ![16, 4096]⟩ : Shape).Idx → EReal :=
  fun i => Finset.univ.fold min inf fun q : Fin 4096 => sqDist A O (i 0) (i 1) q

theorem nearest_apply (A O : (⟨3, ![16, 4096, 3]⟩ : Shape).Idx → EReal) (b : Fin 16) (n : Fin 4096) :
    nearest A O (ix2 b n) = Finset.univ.fold min inf fun q : Fin 4096 => sqDist A O b n q := rfl

/-- The squared distance of point `r` of a block of 512 query points to point `j` of a block of 256
    candidates, both blocks with the coordinate axis in the middle. -/
def tileDist (x0 : (⟨3, ![16, 3, 512]⟩ : Shape).Idx → EReal) (x1 : (⟨3, ![16, 3, 256]⟩ : Shape).Idx → EReal)
    (b : Fin 16) (r : Fin 512) (j : Fin 256) : EReal :=
  (x0 (ix3 b (0 : Fin 3) r) * x0 (ix3 b (0 : Fin 3) r) + x0 (ix3 b (1 : Fin 3) r) * x0 (ix3 b (1 : Fin 3) r)
      + x0 (ix3 b (2 : Fin 3) r) * x0 (ix3 b (2 : Fin 3) r)
    + (x1 (ix3 b (0 : Fin 3) j) * x1 (ix3 b (0 : Fin 3) j) + x1 (ix3 b (1 : Fin 3) j) * x1 (ix3 b (1 : Fin 3) j)
      + x1 (ix3 b (2 : Fin 3) j) * x1 (ix3 b (2 : Fin 3) j)))
  - two * (x0 (ix3 b (0 : Fin 3) r) * x1 (ix3 b (0 : Fin 3) j) + x0 (ix3 b (1 : Fin 3) r) * x1 (ix3 b (1 : Fin 3) j)
      + x0 (ix3 b (2 : Fin 3) r) * x1 (ix3 b (2 : Fin 3) j))

end Cert.Chamfer

end
-- ==== Proof.KPayload.lean ====
/-
  One tile folded into a running minimum, entry by entry, over the extended reals.

  The body's arithmetic is a chain of whole-block operations: coordinates sliced out of the two input
  blocks, squares and products, columns and rows spread over a [16, 512, 256] tile, a minimum along
  the tile's last axis. Each layout step is read here at an index (a slice and a recast move a
  coordinate; spreading a column or a row forgets one coordinate; the minimum along an axis is the
  minimum over that axis's 256 coordinates), and the result is: at (b, r) the tile step leaves
      min (what was there) (min over the 256 candidates j of tileDist x0 x1 b r j).
-/
import proofs.«135807_j24790551233440_2_alg».proof.Proof.KPieces
import proofs.«135807_j24790551233440_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Cert.KernelIdeal.Pieces Cert.Chamfer
open Idealize.ShloMosaic.ValueIdx

/-! ## The layout steps, each read at an index -/

/-- Coordinate `d` of a [16, 3, 512] block, sliced out as [16, 1, 512] and recast as [16, 512], read at
    (b, r): the block at (b, d, r). -/
theorem coord512_apply (x : S16x3x512.Idx → EReal) (d : Fin 3) (off : Fin 3 → Nat) (hoff : off = ![0, d.val, 0])
    (h : S16x3x512.Slices off S16x1x512) (h' : S16x1x512.ShapeCasts S16x512) (b : Fin 16) (r : Fin 512) :
    shapeCast S16x512 (extractStridedSlice S16x1x512 off x h) h' (ix2 b r) = x (ix3 b d r) := by
  subst hoff
  refine (shapeCast_apply _ h' (ix2 b r) (ix3 b (0 : Fin 1) r) ?_).trans ?_
  · rw [Shape.rowMajor_val_three, Shape.rowMajor_val_two]
    show (b.val * 1 + 0) * 512 + r.val = b.val * 512 + r.val
    omega
  · exact extractStridedSlice_apply _ x h (ix3 b (0 : Fin 1) r) (ix3 b d r) fun a => by
      match a with
      | ⟨0, _⟩ => show b.val = 0 + b.val; omega
      | ⟨1, _⟩ => show d.val = d.val + 0; omega
      | ⟨2, _⟩ => show r.val = 0 + r.val; omega

/-- Coordinate `d` of a [16, 3, 256] block, sliced out as [16, 1, 256] and recast as [16, 256], read at
    (b, r): the block at (b, d, r). -/
theorem coord256_apply (x : S16x3x256.Idx → EReal) (d : Fin 3) (off : Fin 3 → Nat) (hoff : off = ![0, d.val, 0])
    (h : S16x3x256.Slices off S16x1x256) (h' : S16x1x256.ShapeCasts S16x256) (b : Fin 16) (r : Fin 256) :
    shapeCast S16x256 (extractStridedSlice S16x1x256 off x h) h' (ix2 b r) = x (ix3 b d r) := by
  subst hoff
  refine (shapeCast_apply _ h' (ix2 b r) (ix3 b (0 : Fin 1) r) ?_).trans ?_
  · rw [Shape.rowMajor_val_three, Shape.rowMajor_val_two]
    show (b.val * 1 + 0) * 256 + r.val = b.val * 256 + r.val
    omega
  · exact extractStridedSlice_apply _ x h (ix3 b (0 : Fin 1) r) (ix3 b d r) fun a => by
      match a with
      | ⟨0, _⟩ => show b.val = 0 + b.val; omega
      | ⟨1, _⟩ => show d.val = d.val + 0; omega
      | ⟨2, _⟩ => show r.val = 0 + r.val; omega

/-- A [16, 512] array recast as a column [16, 512, 1] and spread over [16, 512, 256], read at (b, r, j):
    the array at (b, r). -/
theorem column_apply (v : S16x512.Idx → EReal) (h : S16x512.ShapeCasts S16x512x1) (h' : S16x512x1.Broadcasts S16x512x256)
    (b : Fin 16) (r : Fin 512) (j : Fin 256) :
    broadcastTo S16x512x256 (shapeCast S16x512x1 v h) h' (ix3 b r j) = v (ix2 b r) := by
  refine (broadcastTo_apply _ h' (ix3 b r j) (ix3 b r (0 : Fin 1)) fun a => ?_).trans ?_
  · match a with
    | ⟨0, _⟩ => show b.val = if (16 : Nat) = 1 then 0 else b.val; rw [if_neg (by decide)]
    | ⟨1, _⟩ => show r.val = if (512 : Nat) = 1 then 0 else r.val; rw [if_neg (by decide)]
    | ⟨2, _⟩ => show 0 = if (1 : Nat) = 1 then 0 else j.val; rw [if_pos rfl]
  · refine shapeCast_apply _ h (ix3 b r (0 : Fin 1)) (ix2 b r) ?_
    rw [Shape.rowMajor_val_three, Shape.rowMajor_val_two]
    show b.val * 512 + r.val = (b.val * 512 + r.val) * 1 + 0
    omega

/-- A [16, 1, 256] array spread over [16, 512, 256], read at (b, r, j): the array at (b, 0, j). -/
theorem spreadRow_apply (w : S16x1x256.Idx → EReal) (h' : S16x1x256.Broadcasts S16x512x256)
    (b : Fin 16) (r : Fin 512) (j : Fin 256) :
    broadcastTo S16x512x256 w h' (ix3 b r j) = w (ix3 b (0 : Fin 1) j) :=
  broadcastTo_apply _ h' (ix3 b r j) (ix3 b (0 : Fin 1) j) fun a => by
    match a with
    | ⟨0, _⟩ => show b.val = if (16 : Nat) = 1 then 0 else b.val; rw [if_neg (by decide)]
    | ⟨1, _⟩ => show 0 = if (1 : Nat) = 1 then 0 else r.val; rw [if_pos rfl]
    | ⟨2, _⟩ => show j.val = if (256 : Nat) = 1 then 0 else j.val; rw [if_neg (by decide)]

/-- A [16, 256] array recast as a row [16, 1, 256], read at (b, 0, j): the array at (b, j). -/
theorem asRow_apply (w : S16x256.Idx → EReal) (h : S16x256.ShapeCasts S16x1x256) (b : Fin 16) (j : Fin 256) :
    shapeCast S16x1x256 w h (ix3 b (0 : Fin 1) j) = w (ix2 b j) := by
  refine shapeCast_apply _ h (ix3 b (0 : Fin 1) j) (ix2 b j) ?_
  rw [Shape.rowMajor_val_three, Shape.rowMajor_val_two]
  show b.val * 256 + j.val = (b.val * 1 + 0) * 256 + j.val
  omega

/-- The minimum along the last axis of a [16, 512, 256] tile, started from +∞, read at (b, r): the
    minimum over the 256 coordinates j of the tile at (b, r, j). -/
theorem laneMin_apply (src : FVec Ideal S16x512x256 .f32) (h : S16x512x256.Reduces [2] S16x512)
    (hφ : FKind.Formats .f32) (hacc : (0x7F800000#32 : BitVec 32) = FKind.minimumf.neutral .f32 hφ) (b : Fin 16) (r : Fin 512) :
    multiReduction .minimumf [2] S16x512 src 0x7F800000#32 h hφ hacc (ix2 b r)
      = Finset.univ.fold min inf fun j : Fin 256 => src (ix3 b r j) := by
  refine (multiReduction_minimumf_eq_fold src _ h hφ hacc (ix2 b r)).trans ?_
  refine (h.fold_filter_drop_single _ _ src (ix2 b r)).trans ?_
  refine congrArg (fun g : Fin 256 → EReal => Finset.univ.fold min inf g) (funext fun j => congrArg src (funext fun a => Fin.ext ?_))
  match a with
  | ⟨0, _⟩ => rfl
  | ⟨1, _⟩ => rfl
  | ⟨2, _⟩ => rfl

/-! ## The body's intermediate blocks at an index -/

theorem pay5_apply (x0 : Vec Ideal S16x3x512 .f32) (b : Fin 16) (r : Fin 512) :
    k0_pay5 x0 (ix2 b r) = x0 (ix3 b (0 : Fin 3) r) := by
  unfold k0_pay5 k0_pay3
  dsimp only
  rw [shapeCast_self]
  exact coord512_apply x0 (0 : Fin 3) _ rfl _ _ b r

theorem pay6_apply (x0 : Vec Ideal S16x3x512 .f32) (b : Fin 16) (r : Fin 512) :
    k0_pay6 x0 (ix2 b r) = x0 (ix3 b (1 : Fin 3) r) := by
  unfold k0_pay6 k0_pay3
  dsimp only
  rw [shapeCast_self]
  exact coord512_apply x0 (1 : Fin 3) _ rfl _ _ b r

theorem pay7_apply (x0 : Vec Ideal S16x3x512 .f32) (b : Fin 16) (r : Fin 512) :
    k0_pay7 x0 (ix2 b r) = x0 (ix3 b (2 : Fin 3) r) := by
  unfold k0_pay7 k0_pay3
  dsimp only
  rw [shapeCast_self]
  exact coord512_apply x0 (2 : Fin 3) _ rfl _ _ b r

theorem pay8_apply (x1 : Vec Ideal S16x3x256 .f32) (b : Fin 16) (r : Fin 256) :
    k0_pay8 x1 (ix2 b r) = x1 (ix3 b (0 : Fin 3) r) := by
  unfold k0_pay8 k0_pay4
  dsimp only
  rw [shapeCast_self]
  exact coord256_apply x1 (0 : Fin 3) _ rfl _ _ b r

theorem pay9_apply (x1 : Vec Ideal S16x3x256 .f32) (b : Fin 16) (r : Fin 256) :
    k0_pay9 x1 (ix2 b r) = x1 (ix3 b (1 : Fin 3) r) := by
  unfold k0_pay9 k0_pay4
  dsimp only
  rw [shapeCast_self]
  exact coord256_apply x1 (1 : Fin 3) _ rfl _ _ b r

theorem pay10_apply (x1 : Vec Ideal S16x3x256 .f32) (b : Fin 16) (r : Fin 256) :
    k0_pay10 x1 (ix2 b r) = x1 (ix3 b (2 : Fin 3) r) := by
  unfold k0_pay10 k0_pay4
  dsimp only
  rw [shapeCast_self]
  exact coord256_apply x1 (2 : Fin 3) _ rfl _ _ b r

/-- The squared lengths of the query points, spread along the candidates. -/
theorem pay13_apply (x0 : Vec Ideal S16x3x512 .f32) (b : Fin 16) (r : Fin 512) (j : Fin 256) :
    k0_pay13 x0 (ix3 b r j)
      = x0 (ix3 b (0 : Fin 3) r) * x0 (ix3 b (0 : Fin 3) r) + x0 (ix3 b (1 : Fin 3) r) * x0 (ix3 b (1 : Fin 3) r)
        + x0 (ix3 b (2 : Fin 3) r) * x0 (ix3 b (2 : Fin 3) r) := by
  unfold k0_pay13
  refine (column_apply _ _ _ b r j).trans ?_
  show k0_pay5 x0 (ix2 b r) * k0_pay5 x0 (ix2 b r) + k0_pay6 x0 (ix2 b r) * k0_pay6 x0 (ix2 b r)
    + k0_pay7 x0 (ix2 b r) * k0_pay7 x0 (ix2 b r) = _
  rw [pay5_apply, pay6_apply, pay7_apply]

/-- The squared lengths of the candidate points, as a row. -/
theorem pay12_apply (x1 : Vec Ideal S16x3x256 .f32) (b : Fin 16) (j : Fin 256) :
    k0_pay12 x1 (ix3 b (0 : Fin 1) j)
      = x1 (ix3 b (0 : Fin 3) j) * x1 (ix3 b (0 : Fin 3) j) + x1 (ix3 b (1 : Fin 3) j) * x1 (ix3 b (1 : Fin 3) j)
        + x1 (ix3 b (2 : Fin 3) j) * x1 (ix3 b (2 : Fin 3) j) := by
  unfold k0_pay12
  refine (asRow_apply _ _ b j).trans ?_
  show k0_pay8 x1 (ix2 b j) * k0_pay8 x1 (ix2 b j) + k0_pay9 x1 (ix2 b j) * k0_pay9 x1 (ix2 b j)
    + k0_pay10 x1 (ix2 b j) * k0_pay10 x1 (ix2 b j) = _
  rw [pay8_apply, pay9_apply, pay10_apply]

/-- The inner products of the query points with the candidates. -/
theorem pay11_apply (x0 : Vec Ideal S16x3x512 .f32) (x1 : Vec Ideal S16x3x256 .f32) (b : Fin 16) (r : Fin 512) (j : Fin 256) :
    k0_pay11 x0 x1 (ix3 b r j)
      = x0 (ix3 b (0 : Fin 3) r) * x1 (ix3 b (0 : Fin 3) j) + x0 (ix3 b (1 : Fin 3) r) * x1 (ix3 b (1 : Fin 3) j)
        + x0 (ix3 b (2 : Fin 3) r) * x1 (ix3 b (2 : Fin 3) j) := by
  unfold k0_pay11
  show broadcastTo S16x512x256 (shapeCast S16x512x1 (k0_pay5 x0) _) _ (ix3 b r j)
        * broadcastTo S16x512x256 (shapeCast S16x1x256 (k0_pay8 x1) _) _ (ix3 b r j)
      + broadcastTo S16x512x256 (shapeCast S16x512x1 (k0_pay6 x0) _) _ (ix3 b r j)
        * broadcastTo S16x512x256 (shapeCast S16x1x256 (k0_pay9 x1) _) _ (ix3 b r j)
      + broadcastTo S16x512x256 (shapeCast S16x512x1 (k0_pay7 x0) _) _ (ix3 b r j)
        * broadcastTo S16x512x256 (shapeCast S16x1x256 (k0_pay10 x1) _) _ (ix3 b r j) = _
  rw [column_apply, column_apply, column_apply, spreadRow_apply, spreadRow_apply, spreadRow_apply,
    asRow_apply, asRow_apply, asRow_apply, pay5_apply, pay6_apply, pay7_apply, pay8_apply, pay9_apply, pay10_apply]

/-! ## The tile step at an entry -/

/-- The last payload over any three intermediate blocks: the old entry joined with the minimum along
    the tile's columns of (squares, spread) − 2 · (products). -/
theorem pay1_apply (v45 : FVec Ideal S16x512x256 .f32) (v47 : FVec Ideal S16x1x256 .f32) (v48 : FVec Ideal S16x512x256 .f32)
    (v55 : Vec Ideal S16x512 .f32) (b : Fin 16) (r : Fin 512) :
    k0_pay1 v45 v47 v48 v55 (ix2 b r)
      = min (v55 (ix2 b r)) (Finset.univ.fold min inf fun j : Fin 256 =>
          v48 (ix3 b r j) + v47 (ix3 b (0 : Fin 1) j) - two * v45 (ix3 b r j)) := by
  unfold k0_pay1
  dsimp only
  rw [shapeCast_self]
  refine congrArg (min (v55 (ix2 b r))) ((laneMin_apply _ _ _ _ b r).trans ?_)
  refine congrArg (fun g : Fin 256 → EReal => Finset.univ.fold min inf g) (funext fun j => ?_)
  show v48 (ix3 b r j) + broadcastTo S16x512x256 v47 _ (ix3 b r j) - two * v45 (ix3 b r j) = _
  rw [spreadRow_apply]

/-- ONE TILE FOLDED IN, at an entry. -/
theorem foldTile_apply (x0 : Vec Ideal S16x3x512 .f32) (x1 : Vec Ideal S16x3x256 .f32) (prev : Vec Ideal S16x512 .f32)
    (b : Fin 16) (r : Fin 512) :
    foldTile x0 x1 prev (ix2 b r) = min (prev (ix2 b r)) (Finset.univ.fold min inf fun j : Fin 256 => tileDist x0 x1 b r j) := by
  unfold foldTile
  rw [pay1_apply]
  refine congrArg (min (prev (ix2 b r))) (congrArg (fun g : Fin 256 → EReal => Finset.univ.fold min inf g) (funext fun j => ?_))
  rw [pay13_apply, pay12_apply, pay11_apply]
  rfl

/-- The block a row tile starts from is +∞ at every entry. -/
theorem start_apply (i : S16x512.Idx) : (start (F := Ideal)) i = inf := by
  unfold start k0_pay2
  rw [shapeCast_self]
  rfl

end Cert.KernelIdeal.Payload

end
-- ==== Proof.LibRunningMin.lean ====
/-
  Laws of a running minimum. A minimum over an axis of length N may be taken all at once or tile by
  tile, each tile of width w folded into the minimum of the tiles before it. `minBelow b f bound` is
  the minimum, started from `b`, of `f` over the indices below `bound`; it is characterised by what
  lies below it (`le_minBelow`), and that characterisation gives: below 0 it is `b`; one more tile
  takes it from `w * k` to `w * (k + 1)`; from N on it is the minimum over the whole axis. Only the
  order is used, so the laws hold in any linear order, the extended reals among them.
-/
import Mathlib

namespace Cert.MinLaws

variable {α : Type*} [LinearOrder α]

/-- The minimum, started from `b`, of `f` over the indices below `bound`. -/
def minBelow {N : ℕ} (b : α) (f : Fin N → α) (bound : ℕ) : α :=
  (Finset.univ.filter fun q : Fin N => q.val < bound).fold min b f

/-- What lies below it: what lies below `b` and below every `f q` with `q` under the bound. -/
theorem le_minBelow {N : ℕ} (b : α) (f : Fin N → α) (bound : ℕ) (c : α) :
    c ≤ minBelow b f bound ↔ c ≤ b ∧ ∀ q : Fin N, q.val < bound → c ≤ f q := by
  unfold minBelow
  rw [Finset.le_fold_min]
  simp only [Finset.mem_filter, Finset.mem_univ, true_and]

/-- Over no index at all it is the starting value. -/
theorem minBelow_zero {N : ℕ} (b : α) (f : Fin N → α) : minBelow b f 0 = b := by
  refine eq_of_forall_le_iff fun c => ?_
  rw [le_minBelow]
  exact ⟨fun h => h.1, fun h => ⟨h, fun q hq => absurd hq (Nat.not_lt_zero _)⟩⟩

/-- From the axis's length on it is the minimum over the whole axis. -/
theorem minBelow_all {N : ℕ} (b : α) (f : Fin N → α) (bound : ℕ) (h : N ≤ bound) :
    minBelow b f bound = Finset.univ.fold min b f := by
  unfold minBelow
  rw [Finset.filter_true_of_mem fun q _ => lt_of_lt_of_le q.isLt h]

/-- One more tile: the minimum below `w * k` joined with the minimum, started from the same `b`, over
    tile `k` (whose entry `j` is `f (w * k + j)`) is the minimum below `w * (k + 1)`. -/
theorem minBelow_step {N w : ℕ} (b : α) (f : Fin N → α) (k : ℕ) (g : Fin w → α)
    (hg : ∀ (j : Fin w) (h : w * k + j.val < N), g j = f ⟨w * k + j.val, h⟩) (hk : w * (k + 1) ≤ N) :
    min (minBelow b f (w * k)) (Finset.univ.fold min b g) = minBelow b f (w * (k + 1)) := by
  have hw : w * (k + 1) = w * k + w := Nat.mul_succ w k
  refine eq_of_forall_le_iff fun c => ?_
  rw [le_min_iff, le_minBelow, le_minBelow, Finset.le_fold_min]
  constructor
  · rintro ⟨⟨hb, h1⟩, -, h2⟩
    refine ⟨hb, fun q hq => ?_⟩
    by_cases hlt : q.val < w * k
    · exact h1 q hlt
    · have hj : q.val - w * k < w := by omega
      have hq' : w * k + (q.val - w * k) < N := by have := q.isLt; omega
      have h3 := h2 ⟨q.val - w * k, hj⟩ (Finset.mem_univ _)
      rw [hg ⟨q.val - w * k, hj⟩ hq'] at h3
      have e : (⟨w * k + (q.val - w * k), hq'⟩ : Fin N) = q := Fin.ext (by dsimp only; omega)
      rw [e] at h3
      exact h3
  · rintro ⟨hb, h⟩
    refine ⟨⟨hb, fun q hq => h q (by omega)⟩, hb, fun j _ => ?_⟩
    have hlt : w * k + j.val < N := by have := j.isLt; omega
    rw [hg j hlt]
    exact h ⟨w * k + j.val, hlt⟩ (by have := j.isLt; dsimp only; omega)

end Cert.MinLaws
-- ==== Proof.KInvariant.lean ====
/-
  What the scratch block holds after every grid point, in closed form.

  The grid point number t walks 8 row tiles, and within each its 16 column tiles: row tile t / 16,
  column tile t % 16. The two input blocks at t are rows 512·(t/16) … of the first cloud stack and
  rows 256·(t%16) … of the second (both handed to the kernel with the coordinate axis in the middle:
  the arrays the region finds are the transposes of the arguments). So the tile at t holds the squared
  distances of query points 512·(t/16) + r to candidates 256·(t%16) + j, and the running minimum after
  point t is, at (b, r), the minimum of `dist` over the candidates below 256·(t%16 + 1): by induction
  on t, one tile step at a time. At a last column tile (t % 16 = 15) that is the minimum over all 4096
  candidates, and the output block is a copy of it.
-/
import proofs.«135807_j24790551233440_2_alg».proof.Proof.KPayload
import proofs.«135807_j24790551233440_2_alg».proof.Proof.LibRunningMin
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem

open Idealize.ShloMosaic.Pipeline (Dat)

namespace Cert.KernelIdeal.Invariant

open Cert.KernelIdeal Cert.KernelIdeal.Gen Cert.KernelIdeal.Pieces Cert.KernelIdeal.Payload Cert.Chamfer Cert.MinLaws
open Idealize.ShloMosaic.ValueIdx

variable (m : (ℓ : Loc nD τ sig) → Buf (Elt Ideal) ℓ)

/-- The first argument, the query clouds, on core `c`. -/
abbrev argA (c : Dev nD) : S16x4096x3.Idx → EReal := m ((c : Thread nD τ).loc main_arg0)
/-- The second argument, the candidate clouds. -/
abbrev argO (c : Dev nD) : S16x4096x3.Idx → EReal := m ((c : Thread nD τ).loc main_arg1)

/-! ## The arrays the region finds -/

/-- The region's first operand is the first argument with its last two axes exchanged, -/
theorem V_v0 (c : Dev nD) : (V m c main_v0 : S16x3x4096.Idx → EReal)
    = transpose S16x3x4096 [0, 2, 1] (argA m c) transposes_S16x4096x3_S16x3x4096_0_2_1 := by
  show StableHlo.after hostOps0 (fun b => m (c, b)) (Proc.devRef .tc main_v0) = _
  after_results

/-- and its second operand the second argument likewise. -/
theorem V_v1 (c : Dev nD) : (V m c main_v1 : S16x3x4096.Idx → EReal)
    = transpose S16x3x4096 [0, 2, 1] (argO m c) transposes_S16x4096x3_S16x3x4096_0_2_1 := by
  show StableHlo.after hostOps0 (fun b => m (c, b)) (Proc.devRef .tc main_v1) = _
  after_results

theorem V_v0_apply (c : Dev nD) (b : Fin 16) (d : Fin 3) (n : Fin 4096) :
    (V m c main_v0 : S16x3x4096.Idx → EReal) (ix3 b d n) = argA m c (ix3 b n d) := by
  rw [V_v0]
  exact transpose_ix3_021_apply _ _ b d n

theorem V_v1_apply (c : Dev nD) (b : Fin 16) (d : Fin 3) (n : Fin 4096) :
    (V m c main_v1 : S16x3x4096.Idx → EReal) (ix3 b d n) = argO m c (ix3 b n d) := by
  rw [V_v1]
  exact transpose_ix3_021_apply _ _ b d n

/-! ## Where the blocks sit -/

/-- The block index maps over the grid: the query block moves with the row tile, the candidate block
    with the column tile, the output block with the row tile. -/
theorem index_facts : ∀ t : Fin cfg0.N,
    win0_0.index t (0 : Fin 3) = 0 ∧ win0_0.index t (1 : Fin 3) = 0 ∧ win0_0.index t (2 : Fin 3) = t.val / 16
    ∧ win0_1.index t (0 : Fin 3) = 0 ∧ win0_1.index t (1 : Fin 3) = 0 ∧ win0_1.index t (2 : Fin 3) = t.val % 16
    ∧ win0_2.index t (0 : Fin 2) = 0 ∧ win0_2.index t (1 : Fin 2) = t.val / 16 :=
  (by decide +kernel : ∀ t : Fin grid0.N, _)

theorem lt_N (t : Fin cfg0.N) : t.val < 128 := lt_of_lt_of_eq t.isLt (show cfg0.N = 128 from N_0)

/-- The query point that entry `r` of the row tile of point `n` stands for. -/
def rowOf (n : ℕ) (r : Fin 512) : Fin 4096 := ⟨512 * (n / 16 % 8) + r.val, by have := r.isLt; omega⟩
/-- The candidate that entry `j` of the column tile of point `n` stands for. -/
def colOf (n : ℕ) (j : Fin 256) : Fin 4096 := ⟨256 * (n % 16) + j.val, by have := j.isLt; omega⟩

/-- An entry of the query block at point `t` is an entry of the first argument, -/
theorem iblk0_apply (c : Dev nD) (t : Fin cfg0.N) (b : Fin 16) (d : Fin 3) (r : Fin 512) :
    (iblk m c 0 t : S16x3x512.Idx → EReal) (ix3 b d r) = argA m c (ix3 b (rowOf t.val r) d) := by
  obtain ⟨e0, e1, e2, -⟩ := index_facts t
  have hN := lt_N t
  refine Eq.trans ?_ (V_v0_apply m c b d (rowOf t.val r))
  unfold iblk
  rw [View.read_apply]
  show V m c main_v0 _ = V m c main_v0 _
  refine congrArg (V m c main_v0) (funext fun a => Fin.ext ?_)
  match a with
  | ⟨0, _⟩ => show win0_0.index t (0 : Fin 3) * 16 + 1 * b.val = b.val; omega
  | ⟨1, _⟩ => show win0_0.index t (1 : Fin 3) * 3 + 1 * d.val = d.val; omega
  | ⟨2, _⟩ => show win0_0.index t (2 : Fin 3) * 512 + 1 * r.val = 512 * (t.val / 16 % 8) + r.val; omega

/-- and one of the candidate block an entry of the second. -/
theorem iblk1_apply (c : Dev nD) (t : Fin cfg0.N) (b : Fin 16) (d : Fin 3) (j : Fin 256) :
    (iblk m c 1 t : S16x3x256.Idx → EReal) (ix3 b d j) = argO m c (ix3 b (colOf t.val j) d) := by
  obtain ⟨-, -, -, e0, e1, e2, -⟩ := index_facts t
  refine Eq.trans ?_ (V_v1_apply m c b d (colOf t.val j))
  unfold iblk
  rw [View.read_apply]
  show V m c main_v1 _ = V m c main_v1 _
  refine congrArg (V m c main_v1) (funext fun a => Fin.ext ?_)
  match a with
  | ⟨0, _⟩ => show win0_1.index t (0 : Fin 3) * 16 + 1 * b.val = b.val; omega
  | ⟨1, _⟩ => show win0_1.index t (1 : Fin 3) * 3 + 1 * d.val = d.val; omega
  | ⟨2, _⟩ => show win0_1.index t (2 : Fin 3) * 256 + 1 * j.val = 256 * (t.val % 16) + j.val; omega

/-- So the tile at point `t` holds the squared distances of its query points to its candidates. -/
theorem tile_eq (c : Dev nD) (t : Fin cfg0.N) (b : Fin 16) (r : Fin 512) (j : Fin 256) :
    tileDist (iblk m c 0 t) (iblk m c 1 t) b r j = sqDist (argA m c) (argO m c) b (rowOf t.val r) (colOf t.val j) := by
  unfold tileDist sqDist normSq inner3
  rw [iblk0_apply m c t b (0 : Fin 3) r, iblk0_apply m c t b (1 : Fin 3) r, iblk0_apply m c t b (2 : Fin 3) r,
    iblk1_apply m c t b (0 : Fin 3) j, iblk1_apply m c t b (1 : Fin 3) j, iblk1_apply m c t b (2 : Fin 3) j]

/-! ## The running minimum -/

/-- The running minimum of query point (b, rowOf n r) over the candidates below a bound. -/
abbrev upTo (c : Dev nD) (n : ℕ) (b : Fin 16) (r : Fin 512) (bound : ℕ) : EReal :=
  minBelow inf (fun q : Fin 4096 => sqDist (argA m c) (argO m c) b (rowOf n r) q) bound

/-- ONE TILE STEP: folding the tile of point `t` into the minimum over the candidates of the column
    tiles before it gives the minimum over the candidates up to and including its own. -/
theorem step_eq (c : Dev nD) (t : Fin cfg0.N) (prev : Vec Ideal S16x512 .f32) (b : Fin 16) (r : Fin 512)
    (hprev : prev (ix2 b r) = upTo m c t.val b r (256 * (t.val % 16))) :
    foldTile (iblk m c 0 t) (iblk m c 1 t) prev (ix2 b r) = upTo m c t.val b r (256 * (t.val % 16 + 1)) := by
  rw [foldTile_apply, hprev]
  exact minBelow_step inf (fun q : Fin 4096 => sqDist (argA m c) (argO m c) b (rowOf t.val r) q) (t.val % 16)
    (fun j : Fin 256 => tileDist (iblk m c 0 t) (iblk m c 1 t) b r j)
    (fun j h => (tile_eq m c t b r j).trans (congrArg (sqDist (argA m c) (argO m c) b (rowOf t.val r)) (Fin.ext rfl)))
    (by omega)

/-- At a first column tile the scratch holds the minimum over that tile's candidates. -/
theorem scratch_first (c : Dev nD) (t : Fin cfg0.N) (h0 : t.val % 16 = 0) (b : Fin 16) (r : Fin 512) :
    (outsAt0 m c t.val t.isLt).2 (ix2 b r) = upTo m c t.val b r (256 * (t.val % 16 + 1)) := by
  have h1 : ¬t.val % 16 = 15 := by omega
  rw [outsAt0_A m c t h0 h1]
  dsimp only
  rw [scratch_A]
  refine step_eq m c t start b r ((start_apply _).trans ?_)
  show inf = upTo m c t.val b r (256 * (t.val % 16))
  rw [h0]
  exact (minBelow_zero inf _).symm

/-- At a later column tile it holds the minimum up to that tile, given that the point before left the
    minimum up to the tile before. -/
theorem scratch_later (c : Dev nD) (t : Fin cfg0.N) (h0 : ¬t.val % 16 = 0) (b : Fin 16) (r : Fin 512)
    (ih : (outsAt0 m c (t.val - 1) (Nat.lt_of_le_of_lt (Nat.sub_le _ _) t.isLt)).2 (ix2 b r) = upTo m c (t.val - 1) b r (256 * ((t.val - 1) % 16 + 1))) :
    (outsAt0 m c t.val t.isLt).2 (ix2 b r) = upTo m c t.val b r (256 * (t.val % 16 + 1)) := by
  have hrow : rowOf (t.val - 1) r = rowOf t.val r := Fin.ext (by unfold rowOf; dsimp only; omega)
  have hprev : (outsAt0 m c (t.val - 1) (Nat.lt_of_le_of_lt (Nat.sub_le _ _) t.isLt)).2 (ix2 b r) = upTo m c t.val b r (256 * (t.val % 16)) := by
    rw [ih]
    show minBelow inf (fun q : Fin 4096 => sqDist (argA m c) (argO m c) b (rowOf (t.val - 1) r) q) _
      = minBelow inf (fun q : Fin 4096 => sqDist (argA m c) (argO m c) b (rowOf t.val r) q) _
    rw [hrow, show (t.val - 1) % 16 + 1 = t.val % 16 from by omega]
  by_cases h1 : t.val % 16 = 15
  · rw [outsAt0_C m c t h0 h1]
    dsimp only
    rw [scratch_C]
    exact step_eq m c t _ b r hprev
  · rw [outsAt0_B m c t h0 h1]
    dsimp only
    rw [scratch_B]
    exact step_eq m c t _ b r hprev

/-- THE INVARIANT: after point `n` the scratch holds, at (b, r), the minimum over the candidates of the
    column tiles up to `n`'s own — by induction on the point. -/
theorem scratch_eq (c : Dev nD) : ∀ (n : ℕ) (hn : n < cfg0.N) (b : Fin 16) (r : Fin 512),
    (outsAt0 m c n hn).2 (ix2 b r) = upTo m c n b r (256 * (n % 16 + 1))
  | 0, hn, b, r => scratch_first m c ⟨0, hn⟩ rfl b r
  | n + 1, hn, b, r => by
    by_cases h0 : (n + 1) % 16 = 0
    · exact scratch_first m c ⟨n + 1, hn⟩ h0 b r
    · exact scratch_later m c ⟨n + 1, hn⟩ h0 b r (scratch_eq c n (Nat.lt_of_succ_lt hn) b r)

/-- At a last column tile the output block is the nearest-neighbour squared distance of its row tile's
    query points: the same tile step as the scratch's, taken over all 16 column tiles. -/
theorem output_eq (c : Dev nD) (t : Fin cfg0.N) (h15 : t.val % 16 = 15) (b : Fin 16) (r : Fin 512) :
    (outsAt0 m c t.val t.isLt).1 (ix2 b r) = nearest (argA m c) (argO m c) (ix2 b (rowOf t.val r)) := by
  have hN := lt_N t
  have h0 : ¬t.val % 16 = 0 := by omega
  have hrow : rowOf (t.val - 1) r = rowOf t.val r := Fin.ext (by unfold rowOf; dsimp only; omega)
  have hprev : (outsAt0 m c (t.val - 1) (Nat.lt_of_le_of_lt (Nat.sub_le _ _) t.isLt)).2 (ix2 b r) = upTo m c t.val b r (256 * (t.val % 16)) := by
    rw [scratch_eq m c (t.val - 1) _ b r]
    show minBelow inf (fun q : Fin 4096 => sqDist (argA m c) (argO m c) b (rowOf (t.val - 1) r) q) _
      = minBelow inf (fun q : Fin 4096 => sqDist (argA m c) (argO m c) b (rowOf t.val r) q) _
    rw [hrow, show (t.val - 1) % 16 + 1 = t.val % 16 from by omega]
  rw [outsAt0_C m c t h0 h15]
  dsimp only
  rw [output_C]
  rw [step_eq m c t _ b r hprev, nearest_apply]
  exact minBelow_all inf _ _ (by omega)

end Cert.KernelIdeal.Invariant

end
-- ==== Proof.Tail.lean ====
/-
  What both programs do with the nearest-neighbour squared distances once they have them.

  From `M` [16, 4096] (the squared distance of every query point to its nearest candidate), the two
  stacks of object points `a2`, `a3` [16, 8, 512, 3] and the weights `a4` [16]:
      chamfer = mean over the 16 clouds of (mean of M over a cloud's 4096 points) · weight,
      l2      = mean over the 16 clouds of sqrt(Σ (a2 − a3)² + 1e-7) · weight,
      loss    = l2 + 0.2 · chamfer.
  The two programs spell this with the same operations and the same constants, so it is kept as one
  closed term and never opened: the two results are equal because the two `M` are. The facts about
  the shapes that the operations take are arguments, so either program can supply its own.
-/
import Idealize.ShloMosaic.PureOps
import Idealize.ShloMosaic.PureOps.Ideal

noncomputable section

namespace Cert.Chamfer

open Idealize.ShloMosaic

abbrev T16x4096 : Shape := ⟨2, ![16, 4096]⟩
abbrev T16x4096x3 : Shape := ⟨3, ![16, 4096, 3]⟩
abbrev T16x8x512x3 : Shape := ⟨4, ![16, 8, 512, 3]⟩
abbrev T16 : Shape := ⟨1, ![16]⟩
abbrev T_ : Shape := ⟨0, ![]⟩

/-- The loss, from the nearest-neighbour squared distances, the object stacks and the weights. -/
def loss (h1 : T16x4096.ReducesTo [1] T16) (hS : 0 < T_.numel) (hb : T_.BroadcastsInDim T16 (![] : Fin 0 → Fin T16.rank))
    (h0 : T16.ReducesTo [0] T_) (hsc : T16x8x512x3.ShapeCasts T16x4096x3) (h12 : T16x4096x3.ReducesTo [1, 2] T16)
    (M : FVec Ideal T16x4096 .f32) (a2 a3 : FVec Ideal T16x8x512x3 .f32) (a4 : FVec Ideal T16 .f32) : FVec Ideal T_ .f32 :=
  addf (Host.divf (Host.reduceAdd (mulf (Host.sqrt (addf (Host.reduceAdd (mulf (subf (shapeCast _ a2 hsc) (shapeCast _ a3 hsc)) (subf (shapeCast _ a2 hsc) (shapeCast _ a3 hsc))) (constant T_ .f32 0x00000000#32) h12 hS) (broadcastInDim T16 ![] hb (constant T_ .f32 0x33D6BF95#32)))) a4) (constant T_ .f32 0x00000000#32) h0 hS) (constant T_ .f32 0x41800000#32)) (mulf (constant T_ .f32 0x3E4CCCCD#32) (Host.divf (Host.reduceAdd (mulf (Host.divf (Host.reduceAdd M (constant T_ .f32 0x00000000#32) h1 hS) (broadcastInDim T16 ![] hb (constant T_ .f32 0x45800000#32))) a4) (constant T_ .f32 0x00000000#32) h0 hS) (constant T_ .f32 0x41800000#32)))

end Cert.Chamfer

end
-- ==== Proof.KFinal.lean ====
/-
  The kernel's result array and the program's result.

  Only the points of a last column tile write the output block back, one per row tile: the point
  16·(n / 512) + 15 covers column n of the [16, 4096] result array, and what it writes is the block
  of `nearest` for its row tile. So the region leaves `nearest` of the two argument arrays in the
  result array, and the operations after the region make `loss` of it.
-/
import proofs.«135807_j24790551233440_2_alg».proof.Proof.KInvariant
import proofs.«135807_j24790551233440_2_alg».proof.Proof.Tail
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem

open Idealize.ShloMosaic.Pipeline (Dat)

namespace Cert.KernelIdeal.Final

open Cert.KernelIdeal Cert.KernelIdeal.Gen Cert.KernelIdeal.Invariant Cert.Chamfer
open Idealize.ShloMosaic.ValueIdx

variable (m : (ℓ : Loc nD τ sig) → Buf (Elt Ideal) ℓ) (ρ : Dev nD → PrngReg)

/-- The output block after a last column tile, at any of its entries. -/
theorem output_at (c : Dev nD) (t : Fin cfg0.N) (h15 : t.val % 16 = 15) (y : S16x512.Idx) :
    (outsAt0 m c t.val t.isLt).1 y = nearest (argA m c) (argO m c) (ix2 (y 0) (rowOf t.val (y 1))) := by
  exact (congrArg (outsAt0 m c t.val t.isLt).1 (eq_ix2 y)).trans (output_eq m c t h15 (y 0) (y 1))

/-- WHAT A FLUSHING POINT WRITES BACK is its block of `nearest`. -/
theorem flushed_eq (c : Dev nD) (t : Fin cfg0.N) (hf : (cfg0.win 2).flush t = true) :
    (dats m 0 c).flushed 2 t = ((cfg0.win 2).blk t).view.read (Elt Ideal) (nearest (argA m c) (argO m c)) := by
  have h15 : t.val % 16 = 15 := (flush0_2 t).mp hf
  obtain ⟨-, -, -, -, -, -, e0, e1⟩ := index_facts t
  have hN := lt_N t
  show (cfg0.win 2).cut (grid0.coords t) ((dats m 0 c).after 2 t) = _
  rw [after0_2]
  funext y
  show (outsAt0 m c t.val t.isLt).1 y = nearest (argA m c) (argO m c) (((cfg0.win 2).blk t).view.emb y)
  refine (output_at m c t h15 y).trans (congrArg (nearest (argA m c) (argO m c)) (funext fun a => Fin.ext ?_))
  match a with
  | ⟨0, _⟩ => show (y 0).val = win0_2.index t (0 : Fin 2) * 16 + 1 * (y 0).val; omega
  | ⟨1, _⟩ => show 512 * (t.val / 16 % 8) + (y 1).val = win0_2.index t (1 : Fin 2) * 512 + 1 * (y 1).val; omega

/-- An index of the result array is in point `t`'s block iff each coordinate is in the block's range. -/
theorem mem_blk (t : Fin cfg0.N) (i : S16x4096.Idx) :
    i ∈ ((cfg0.win 2).blk t).view.set ↔ ∀ a : Fin 2, win0_2.index t a * S16x512.size a ≤ (i a).val ∧ (i a).val < win0_2.index t a * S16x512.size a + S16x512.size a := by
  show i ∈ ((View.whole main_v2).slice (win0_2.rect t)).set ↔ _
  rw [View.set_slice_whole, Rect.mem_set_unit]
  exact Iff.rfl

/-- Every index of the result array is in the block of the last column tile's point of its row tile. -/
theorem cover (i : S16x4096.Idx) : ∃ t : Fin cfg0.N, (cfg0.win 2).flush t = true ∧ i ∈ ((cfg0.win 2).blk t).view.set := by
  have h0 : (i 0).val < 16 := (i 0).isLt
  have h1 : (i 1).val < 4096 := (i 1).isLt
  have hN : cfg0.N = 128 := N_0
  obtain ⟨t, ht⟩ : ∃ t : Fin cfg0.N, t.val = 16 * ((i 1).val / 512) + 15 := ⟨⟨16 * ((i 1).val / 512) + 15, by rw [hN]; omega⟩, rfl⟩
  obtain ⟨-, -, -, -, -, -, e0, e1⟩ := index_facts t
  refine ⟨t, (flush0_2 t).mpr (by omega), ?_⟩
  rw [mem_blk]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 512 ≤ (i 1).val ∧ (i 1).val < win0_2.index t (1 : Fin 2) * 512 + 512; omega

/-- THE RESULT ARRAY after the region: the nearest-neighbour squared distances. -/
theorem final (c : Dev nD) : (dats m 0 c).arrAt 2 cfg0.N = nearest (argA m c) (argO m c) :=
  (dats m 0 c).arrAt_eq_of_cover 2 (nearest (argA m c) (argO m c)) (fun t hf => flushed_eq m c t hf) cover

/-! ## The operations after the region -/

set_option maxHeartbeats 2000000 in
/-- THE PROGRAM'S RESULT: the operations after the region, run on the result array the region left and
    on the untouched arguments, make `loss` of `nearest`. -/
theorem tail_eq (c : Dev nD) : Pipeline.afterTail₀ cfgs (dats m) 0 (V0 m) [hostOps1] c main_v21
    = loss reducesTo_S16x4096_S16_d1 h_S_ bcast_S_S16 reducesTo_S16_S_d0 shapeCasts_S16x8x512x3_S16x4096x3 reducesTo_S16x4096x3_S16_d1_2 (nearest (argA m c) (argO m c)) (m ((c : Thread nD τ).loc main_arg2)) (m ((c : Thread nD τ).loc main_arg3)) (m ((c : Thread nD τ).loc main_arg4)) := by
  have e2 : Pipeline.withArrays (cfgs 0).spec c (V0 m c) (fun w => (dats m 0 c).arrAt w (cfgs 0).N) (Proc.devRef .tc main_v2) = nearest (argA m c) (argO m c) :=
    (Pipeline.withArrays_arr spec0 launch0.win.arr_inj c _ _ 2).trans (final m c)
  have a2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have a3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  have a4 : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  simp only [List.flatten_cons, List.flatten_nil, List.append_nil]
  after_results
  rw [e2, a2, a3, a4]
  rfl

/-- The kernel's program, run: every weakly fair execution ends with the result at `loss` of `nearest`
    of the first two arguments, and the five arguments as they were. -/
theorem run : θ_run defs (onTc (τ := τ) (main (F := Ideal))) ⟨m, fun _ => 0, ρ⟩ fun r => ∀ c : Dev nD,
      r.2.mem ((c.tc : Thread nD τ).loc main_v21) = loss reducesTo_S16x4096_S16_d1 h_S_ bcast_S_S16 reducesTo_S16_S_d0 shapeCasts_S16x8x512x3_S16x4096x3 reducesTo_S16x4096x3_S16_d1_2 (nearest (argA m c) (argO m c)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.RefValue.lean ====
/-
  The reference, read: it computes `loss` of `nearest` of its first two arguments.

  Its squared-distance array at (b, n, q) is (0 + Σ_d A²) + (0 + Σ_d O²) − 2 · Σ_d A·O, the three sums
  over the coordinate d = 0, 1, 2: that is `sqDist A O b n q`, the leading zeros dropped. Its minimum
  over the last axis, started from +∞, is then `nearest A O` at (b, n), and what follows is the tail
  the kernel's program shares with it.
-/
import proofs.«135807_j24790551233440_2_alg».proof.Proof.Gen.ReferenceIdeal.Read
import proofs.«135807_j24790551233440_2_alg».proof.Proof.Spec
import proofs.«135807_j24790551233440_2_alg».proof.Proof.Tail
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.Chamfer
open Idealize.ShloMosaic.ValueIdx

/-- The reference's squared-distance array at an index. -/
theorem sqDist_eq (x0 x1 : FVec Ideal S16x4096x3 .f32) (b : Fin 16) (n q : Fin 4096) :
    Read.val_main_v12 (F := Ideal) x0 x1 (ix3 b n q) = sqDist x0 x1 b n q := by
  have e1 : ∀ k : Fin 3, Read.idx_main_v1 (Read.idx_main_v5 (Read.idx_main_v7 (ix3 b n q))) k = ix3 b n k := fun k => funext fun a => by
    match a with | ⟨0, _⟩ => rfl | ⟨1, _⟩ => rfl | ⟨2, _⟩ => rfl
  have e3 : ∀ k : Fin 3, Read.idx_main_v3 (Read.idx_main_v6 (Read.idx_main_v8 (ix3 b n q))) k = ix3 b q k := fun k => funext fun a => by
    match a with | ⟨0, _⟩ => rfl | ⟨1, _⟩ => rfl | ⟨2, _⟩ => rfl
  have el : ∀ k : Fin 3, Read.lidx_main_v4 (ix3 b n q) k = ix3 b n k := fun k => funext fun a => by
    match a with | ⟨0, _⟩ => rfl | ⟨1, _⟩ => rfl | ⟨2, _⟩ => rfl
  have er : ∀ k : Fin 3, Read.ridx_main_v4 (ix3 b n q) k = ix3 b q k := fun k => funext fun a => by
    match a with | ⟨0, _⟩ => rfl | ⟨1, _⟩ => rfl | ⟨2, _⟩ => rfl
  unfold sqDist normSq inner3
  rw [Read.val_main_v12_apply, Read.val_main_v9_apply, Read.val_main_v7_apply, Read.val_main_v5_apply, Read.val_main_v1_apply,
    Read.val_main_v8_apply, Read.val_main_v6_apply, Read.val_main_v3_apply, Read.val_main_v11_apply, Read.val_main_v10_apply,
    Read.val_main_v4_apply]
  simp only [Fin.sum_univ_three, e1, e3, el, er, Read.val_main_v0_apply, Read.val_main_v2_apply, Read.val_main_cst_apply,
    Read.val_main_cst_0_apply, Read.val_main_cst_1_apply, Ideal.ofBits_def, Ideal.addf_def, Ideal.subf_def, Ideal.mulf_def,
    Ideal.ofBits_zero_f32, zero_add]

/-- The reference's minimum over the candidates is the nearest-neighbour squared distance. -/
theorem nearest_eq (x0 x1 : FVec Ideal S16x4096x3 .f32) : Read.val_main_v13 (F := Ideal) x0 x1 = nearest x0 x1 := by
  funext i
  obtain ⟨b, n, rfl⟩ : ∃ (b : Fin 16) (n : Fin 4096), i = ix2 b n := ⟨i 0, i 1, eq_ix2 i⟩
  unfold Read.val_main_v13
  refine (Host.reduce_eq_fold_single FloatOps.minimumf _ _ reducesTo_S16x4096x4096_S16x4096_d2 (by decide) h_S_ (ix2 b n)).trans ?_
  rw [nearest_apply]
  refine congrArg (fun g : Fin 4096 → EReal => Finset.univ.fold min inf g) (funext fun q => ?_)
  refine Eq.trans (congrArg (Read.val_main_v12 (F := Ideal) x0 x1) (funext fun a => Fin.ext ?_)) (sqDist_eq x0 x1 b n q)
  match a with
  | ⟨0, _⟩ => rfl
  | ⟨1, _⟩ => rfl
  | ⟨2, _⟩ => rfl

/-- THE REFERENCE'S RESULT: the term its run ends at is `loss` of `nearest` of the first two arguments,
    of the object stacks and of the weights. -/
theorem result_eq (x0 x1 : FVec Ideal S16x4096x3 .f32) (x2 x3 : FVec Ideal S16x8x512x3 .f32) (x4 : FVec Ideal S16 .f32) :
    addf (Host.divf (Host.reduceAdd (mulf (Host.sqrt (addf (Host.reduceAdd (mulf (subf (shapeCast _ x2 shapeCasts_S16x8x512x3_S16x4096x3) (shapeCast _ x3 shapeCasts_S16x8x512x3_S16x4096x3)) (subf (shapeCast _ x2 shapeCasts_S16x8x512x3_S16x4096x3) (shapeCast _ x3 shapeCasts_S16x8x512x3_S16x4096x3))) (constant S_ .f32 0x00000000#32) reducesTo_S16x4096x3_S16_d1_2 h_S_) (broadcastInDim S16 ![] bcast_S_S16 (constant S_ .f32 0x33D6BF95#32)))) x4) (constant S_ .f32 0x00000000#32) reducesTo_S16_S_d0 h_S_) (constant S_ .f32 0x41800000#32)) (mulf (constant S_ .f32 0x3E4CCCCD#32) (Host.divf (Host.reduceAdd (mulf (Host.divf (Host.reduceAdd (Host.reduce FloatOps.minimumf (subf (addf (broadcastInDim S16x4096x4096 ![0, 1, 2] bcast_S16x4096x1_S16x4096x4096_0_1_2 (broadcastInDim S16x4096x1 ![0, 1] bcast_S16x4096_S16x4096x1_0_1 (Host.reduceAdd (mulf x0 x0) (constant S_ .f32 0x00000000#32) reducesTo_S16x4096x3_S16x4096_d2 h_S_))) (broadcastInDim S16x4096x4096 ![0, 1, 2] bcast_S16x1x4096_S16x4096x4096_0_1_2 (broadcastInDim S16x1x4096 ![0, 2] bcast_S16x4096_S16x1x4096_0_2 (Host.reduceAdd (mulf x1 x1) (constant S_ .f32 0x00000000#32) reducesTo_S16x4096x3_S16x4096_d2 h_S_)))) (mulf (broadcastInDim S16x4096x4096 ![] bcast_S_S16x4096x4096 (constant S_ .f32 0x40000000#32)) (Host.dotGeneral dot_S16x4096x3_S16x4096x3_S16x4096x4096_2_2_1_1_0_0 none x0 x1))) (constant S_ .f32 0x7F800000#32) reducesTo_S16x4096x4096_S16x4096_d2 h_S_) (constant S_ .f32 0x00000000#32) reducesTo_S16x4096_S16_d1 h_S_) (broadcastInDim S16 ![] bcast_S_S16 (constant S_ .f32 0x45800000#32))) x4) (constant S_ .f32 0x00000000#32) reducesTo_S16_S_d0 h_S_) (constant S_ .f32 0x41800000#32)))
      = loss reducesTo_S16x4096_S16_d1 h_S_ bcast_S_S16 reducesTo_S16_S_d0 shapeCasts_S16x8x512x3_S16x4096x3
          reducesTo_S16x4096x3_S16_d1_2 (nearest x0 x1) x2 x3 x4 := by
  rw [← nearest_eq]
  rfl

end Cert.ReferenceIdeal.RefValue

end
-- ==== Proof.lean ====
/-
  The kernel and its reference compute one function of their arguments.

  Both programs form, for each of 16 clouds of 4096 points, the squared distance of every point of
  the first cloud to its nearest point of the second, in the expanded form
      (|a|² + |o|²) − 2·⟨a, o⟩,
  and then one loss out of those nearest-neighbour distances, a second pair of point stacks and a
  weight vector. They differ in how the minimum over the 4096 candidates is taken. The reference
  takes it all at once. The kernel walks a grid of 8 row tiles by 16 column tiles over clouds handed
  to it with the coordinate axis in the middle: it keeps a running minimum per row tile, started from
  +∞ at the first column tile, folds in the minimum over each tile's 256 candidates, and writes the
  result out at the last column tile.

  Over the extended reals a minimum over 4096 indices is the minimum of the minima over its 16 chunks
  of 256 (`MinLaws.minBelow_step` of the running-minimum laws, by what lies below a minimum), sums of three terms do not depend on
  whether a zero is added first, and exchanging two axes of an array and reading it back exchanges
  nothing. No other law is needed, so the equality holds at every extended-real input and the
  finiteness precondition is not used. The operations after the minimum are the same in the two
  programs and are kept closed (`Chamfer.loss`).

  Frames: the two kernel programs' are the generated ones; the reference has no kernel and its frame
  is its run with the result dropped. The ideal pass rewrote nothing, so `preserves` is `True`.
-/
import proofs.«135807_j24790551233440_2_alg».proof.Defs
import proofs.«135807_j24790551233440_2_alg».proof.Proof.Gen.Kernel
import proofs.«135807_j24790551233440_2_alg».proof.Proof.Gen.Kernel.Frame
import proofs.«135807_j24790551233440_2_alg».proof.Proof.Gen.KernelIdeal
import proofs.«135807_j24790551233440_2_alg».proof.Proof.Gen.KernelIdeal.Frame
import proofs.«135807_j24790551233440_2_alg».proof.Proof.Gen.ReferenceIdeal
import proofs.«135807_j24790551233440_2_alg».proof.Proof.Gen.ReferenceIdeal.Read
import proofs.«135807_j24790551233440_2_alg».proof.Proof.Gen.Pre_finite_inputs
import proofs.«135807_j24790551233440_2_alg».proof.Proof.KFinal
import proofs.«135807_j24790551233440_2_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals both programs end with `loss` of `nearest` of the first two arguments: the
    kernel's by its grid invariant and the shared tail, the reference's by reading its operations at an
    index; the arguments agree, so the two terms are one. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
